-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x512 : Shape := ⟨2, ![16384, 512]⟩
abbrev S256x512 : Shape := ⟨2, ![256, 512]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S16384x16384 .f32) (main_arg1 : FVec F S16384x512 .f32) (main_arg2 : FVec F S256x512 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Kernel.lean ====
abbrev S16384x16384 : Shape := ⟨2, ![16384, 16384]⟩
abbrev S16384x512 : Shape := ⟨2, ![16384, 512]⟩
abbrev S256x512 : Shape := ⟨2, ![256, 512]⟩
abbrev S16384x256 : Shape := ⟨2, ![16384, 256]⟩
abbrev S1024x2048 : Shape := ⟨2, ![1024, 2048]⟩
abbrev S1024x512 : Shape := ⟨2, ![1024, 512]⟩
abbrev S1024x256 : Shape := ⟨2, ![1024, 256]⟩
abbrev S1024x1 : Shape := ⟨2, ![1024, 1]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x16384, .f32⟩
  | .hbm, ⟨1, _⟩ => ⟨S16384x512, .f32⟩
  | .hbm, ⟨2, _⟩ => ⟨S256x512, .f32⟩
  | .hbm, ⟨3, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S1024x512, .f32⟩
  | .local _ .vmem, ⟨3, _⟩ => ⟨S1024x512, .f32⟩
  | .local _ .vmem, ⟨4, _⟩ => ⟨S256x512, .f32⟩
  | .local _ .vmem, ⟨5, _⟩ => ⟨S1024x256, .f32⟩
  | .local _ .vmem, ⟨6, _⟩ => ⟨S1024x256, .f32⟩
  | .local _ .vmem, ⟨7, _⟩ => ⟨S1024x1, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  broadcasts_S1024x1_S1024x512 : S1024x1.Broadcasts S1024x512
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1024x256_S1024x256_0_0 : ∀ a, (![0, 0] : Fin 2 → Nat) a + S1024x256.size a ≤ S1024x256.size a
  h_S1024x256 : 0 < S1024x256.numel
  dot_S1024x512_S256x512_S1024x256_1_1_0_0_n_n_wf : DotDims.WF S1024x512 S256x512 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)

variable [Facts₀]

def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x512 : Shape := ⟨2, ![16384, 512]⟩
abbrev S256x512 : Shape := ⟨2, ![256, 512]⟩
abbrev S_ : Shape := ⟨0, ![]⟩
abbrev S16384 : Shape := ⟨1, ![16384]⟩
abbrev S16384x1 : Shape := ⟨2, ![16384, 1]⟩
abbrev S16384x256 : Shape := ⟨2, ![16384, 256]⟩

abbrev nBuf : Space → Nat
  | .hbm => 21
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x512, .f32⟩
  | .hbm, ⟨2, _⟩ => ⟨S256x512, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x512, .f32⟩
  | .hbm, ⟨16, _⟩ => ⟨S16384x512, .f32⟩
  | .hbm, ⟨17, _⟩ => ⟨S16384x256, .f32⟩
  | .hbm, ⟨18, _⟩ => ⟨S_, .f32⟩
  | .hbm, ⟨19, _⟩ => ⟨S16384x256, .f32⟩
  | .hbm, ⟨20, _⟩ => ⟨S16384x256, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S16384x256 : S_.BroadcastsInDim S16384x256 (![] : Fin 0 → Fin S16384x256.rank)
  dot_S16384x512_S256x512_S16384x256_1_1_0_0_n_n_wf : DotDims.WF S16384x512 S256x512 S16384x256 [1] [1] [0] [0] [] []

variable [Facts₀]

def dot_S16384x512_S256x512_S16384x256_1_1_0_0_n_n : DotDims S16384x512 S256x512 S16384x256 where
  lhsContracting := [1]
  rhsContracting := [1]
  lhsNonContracting := [0]
  rhsNonContracting := [0]
  lhsBatch := []
  rhsBatch := []
  wf := dot_S16384x512_S256x512_S16384x256_1_1_0_0_n_n_wf

class Facts : Prop extends Facts₀ where

variable [Facts]
-- ==== Proof.DegreeScale.lean ====
/-
  The function both programs compute, and the one law that joins their two arrangements of it.

  For an adjacency matrix `adj` [16384, 16384], features `x` [16384, 512] and a weight `W` [256, 512], row `r` has the
  DEGREE `deg r = 0 + ∑ₖ adj r k` (the sum of its 16384 entries, started from the zero word), the row scale
  `1 / (deg r + 1) + 1` — the diagonal of the self-Laplacian plus the identity —, and the result is the rectified linear
  layer of the scaled features: `out r e = max (∑ᵢ (scale (deg r) · x r i) · W e i) 0`.

  One side takes a row's degree as ONE sum over the 16384 columns; the other walks the columns in 8 tiles of 2048,
  summing each tile and adding the tile sums one after another. Over any additive commutative monoid the two are equal
  (`sum_tiles`: the pairs (tile, column inside the tile) are the columns, by `finProdFinEquiv`), so nothing here asks the
  entries to be finite: on the extended reals addition is commutative and associative at the infinities too.
  The float words `1.0` and `0.0` stay the words they are: the same word stands on both sides and is never evaluated.
-/
import Idealize.ShloMosaic.PureOps.Ideal
import Idealize.ShloMosaic.Lib.ValueIdx

noncomputable section

namespace Cert.DegreeScale

open Idealize.ShloMosaic Idealize.ShloMosaic.ValueIdx

/-- The word `1.0` as an extended real. -/
abbrev one : EReal := Ideal.ofBits .f32 0x3F800000#32
/-- The word `0.0` as an extended real. -/
abbrev zero : EReal := Ideal.ofBits .f32 0x00000000#32

/-- Row `r`'s degree: the zero the sum starts from, plus the row's 16384 adjacency entries. -/
def degree (adj : (⟨2, ![16384, 16384]⟩ : Shape).Idx → EReal) (r : Fin 16384) : EReal :=
  zero + ∑ k : Fin 16384, adj (ix2 r k)

/-- The row scale of a degree `s`: `1 / (s + 1) + 1`. -/
def scale (s : EReal) : EReal := Ideal.div one (s + one) + one

/-- The result at row `r`, output column `e`: the rectified product of the scaled feature row `r` with weight row `e`. -/
def outAt (adj : (⟨2, ![16384, 16384]⟩ : Shape).Idx → EReal) (x : (⟨2, ![16384, 512]⟩ : Shape).Idx → EReal)
    (W : (⟨2, ![256, 512]⟩ : Shape).Idx → EReal) (r : Fin 16384) (e : Fin 256) : EReal :=
  max (∑ k : Fin 512, scale (degree adj r) * x (ix2 r k) * W (ix2 e k)) zero

/-- The result array: `outAt` at each index's two coordinates. -/
def out (adj : (⟨2, ![16384, 16384]⟩ : Shape).Idx → EReal) (x : (⟨2, ![16384, 512]⟩ : Shape).Idx → EReal)
    (W : (⟨2, ![256, 512]⟩ : Shape).Idx → EReal) : (⟨2, ![16384, 256]⟩ : Shape).Idx → EReal := fun i =>
  outAt adj x W (i 0) (i 1)

theorem out_ix2 (adj : (⟨2, ![16384, 16384]⟩ : Shape).Idx → EReal) (x : (⟨2, ![16384, 512]⟩ : Shape).Idx → EReal)
    (W : (⟨2, ![256, 512]⟩ : Shape).Idx → EReal) (r : Fin 16384) (e : Fin 256) :
    out adj x W (ix2 r e) = outAt adj x W r e := rfl

/-- A sum over `J · B` terms is the sum, over `J` tiles, of each tile's `B` terms: the pairs (tile, place in the tile) are
    the terms. In any additive commutative monoid. -/
theorem sum_tiles {M : Type*} [AddCommMonoid M] (J B : ℕ) (f : Fin (J * B) → M) :
    ∑ s : Fin J, ∑ c : Fin B, f (finProdFinEquiv (s, c)) = ∑ k : Fin (J * B), f k :=
  (Fintype.sum_prod_type (fun p : Fin J × Fin B => f (finProdFinEquiv p))).symm.trans (Equiv.sum_comp finProdFinEquiv f)

/-- A row's degree taken tile by tile: with `col s c` the column at place `c` of tile `s` (column `2048 · s + c`), the zero
    plus the 8 tile sums is the degree. -/
theorem degree_eq_tiles (adj : (⟨2, ![16384, 16384]⟩ : Shape).Idx → EReal) (r : Fin 16384)
    (col : Fin 8 → Fin 2048 → Fin 16384) (hcol : ∀ s c, (col s c).val = 2048 * s.val + c.val) :
    zero + ∑ s : Fin 8, ∑ c : Fin 2048, adj (ix2 r (col s c)) = degree adj r := by
  unfold degree
  refine congrArg (zero + ·) ?_
  rw [← sum_tiles 8 2048 (fun k : Fin (8 * 2048) => adj (ix2 r k))]
  refine Finset.sum_congr rfl fun s _ => Finset.sum_congr rfl fun c _ => ?_
  refine congrArg (fun k => adj (ix2 r k)) (Fin.ext ?_)
  rw [hcol, finProdFinEquiv_apply_val]
  exact Nat.add_comm _ _

end Cert.DegreeScale

end
-- ==== Proof.RefIsSpec.lean ====
/-
  The reference, read index by index, is the function `DegreeScale.out` of its three arguments.

  Its host operations compose to: the zero plus the sum of row `r` of the adjacency matrix (the degree), plus one,
  inverted, plus one (the row scale), spread along the 512 feature columns, times the features, contracted with the weight over
  those 512 columns, and the maximum with the zero. Read at `(r, e)` the adjacency entries are those of row `r`, the
  features those of row `r`, the weights those of row `e`: three index equations, and every operation is the
  extended reals' own.
-/
import proofs.«173174_j37014028157612_1_alg».proof.Proof.Gen.ReferenceIdeal.Read
import proofs.«173174_j37014028157612_1_alg».proof.Proof.DegreeScale

noncomputable section

namespace Cert.ReferenceIdeal.RefValue

open Cert.ReferenceIdeal Cert.ReferenceIdeal.Gen Cert.ReferenceIdeal.Read Idealize.ShloMosaic Idealize.ShloMosaic.ValueIdx
open Cert.DegreeScale

/-- The adjacency entry the row sum reads for the feature entry `(r, k)`, at column `k'`: row `r`, column `k'`. -/
theorem adj_index (r : Fin 16384) (k : Fin 512) (k' : Fin 16384) :
    idx_main_v0 (idx_main_v7 (idx_main_v8 (ix2 r k))) k' = ix2 r k' :=
  funext fun a => Fin.ext (by match a with | ⟨0, _⟩ => rfl | ⟨1, _⟩ => rfl)

/-- The contraction at `(r, e)` reads the scaled features at `(r, k)`; -/
theorem feat_index (r : Fin 16384) (e : Fin 256) (k : Fin 512) : lidx_main_v10 (ix2 r e) k = ix2 r k :=
  funext fun a => Fin.ext (by match a with | ⟨0, _⟩ => rfl | ⟨1, _⟩ => rfl)

/-- and the weight at `(e, k)`. -/
theorem weight_index (r : Fin 16384) (e : Fin 256) (k : Fin 512) : ridx_main_v10 (ix2 r e) k = ix2 e k :=
  funext fun a => Fin.ext (by match a with | ⟨0, _⟩ => rfl | ⟨1, _⟩ => rfl)

/-- The reference's last stage is `out` of its arguments. -/
theorem ref_eq_out (adj : (⟨S16384x16384, .f32⟩ : BufTy).Contents (Elt Ideal)) (x : (⟨S16384x512, .f32⟩ : BufTy).Contents (Elt Ideal))
    (W : (⟨S256x512, .f32⟩ : BufTy).Contents (Elt Ideal)) :
    val_main_v11 (F := Ideal) adj x W = out adj x W := by
  funext i
  obtain ⟨r, e, rfl⟩ : ∃ (r : Fin 16384) (e : Fin 256), i = ix2 r e := ⟨i 0, i 1, eq_ix2 i⟩
  rw [out_ix2, val_main_v11_apply, val_main_v10_apply, val_main_call0_v0_apply, val_main_call0_cst_apply]
  refine congrArg (max · zero) (Finset.sum_congr rfl fun k _ => ?_)
  rw [feat_index, weight_index]
  refine congrArg (· * W (ix2 e k)) ?_
  rw [val_main_v9_apply]
  refine congrArg (· * x (ix2 r k)) ?_
  rw [val_main_v8_apply, val_main_v7_apply, val_main_v6_apply, val_main_v5_apply, val_main_cst_2_apply, val_main_v4_apply,
    val_main_v3_apply, val_main_cst_1_apply, val_main_v2_apply, val_main_v1_apply, val_main_cst_0_apply, val_main_v0_apply,
    val_main_cst_apply]
  refine congrArg (fun s => Ideal.div one (s + one) + one) ?_
  exact congrArg (zero + ·) (Finset.sum_congr rfl fun k' _ => congrArg adj (adj_index r k k'))

end Cert.ReferenceIdeal.RefValue

end
-- ==== Proof.CaseValues.lean ====
/-
  What each control case of the body leaves behind, as the body's stored values of what it loaded.

  The body runs in one of three ways, by the column-tile coordinate `j` of the grid point. At `j = 0` it stores the zero
  column into the scratch and then the accumulate step's value over it: the scratch ends at `accumulate (zeros, tile)`,
  whatever it held. At `0 < j < 7` it stores only the accumulate step over what the scratch held. At `j = 7` it does
  the same and then stores the output block: the epilogue's value of the scratch it has just written, the feature block
  and the weight block. Each store covers its whole buffer, so a buffer ends at its last store's value, and a load of a
  buffer just stored reads that value.
-/
import proofs.«173174_j37014028157612_1_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.SL.Sem

variable {F : FTy → Type} [FloatOps F]

/-- Every load and store of the body starts at the origin of its buffer. -/
theorem origin : (![0, 0] : Fin 2 → Nat) = fun _ => 0 := funext fun a => by fin_cases a <;> rfl

/-- First column tile: the scratch ends at the accumulate step over the zero column. -/
theorem scratch_first (c : Dev nD) (i : grid0.Coords) (a2 : Memref sig .tc .vmem S1024x2048 .f32) (h2 : a2.IsWhole) (a3 : Memref sig .tc .vmem S1024x512 .f32) (h3 : a3.IsWhole) (a4 : Memref sig .tc .vmem S256x512 .f32) (h4 : a4.IsWhole) (a5 : Memref sig .tc .vmem S1024x256 .f32) (h5 : a5.IsWhole) (a6 : Memref sig .tc .vmem S1024x1 .f32) (h6 : a6.IsWhole) (hc0 : cond0_0 i) (hc1 : ¬cond0_1 i)
    (x0 : Vec F S1024x2048 .f32) (x1 : Vec F S1024x512 .f32) (x2 : Vec F S256x512 .f32) :
    sout0_A_0 c i a2 h2 a3 h3 a4 h4 a5 h5 a6 h6 hc0 hc1 x0 x1 x2 = k0_pay2 (k0_pay1 (F := F)) x0 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1) origin, View.readCov_unit_zero (S := S1024x1) _ origin]
  simp only [View.readAt_eq_ld, h2.read_unread, View.ld_unit_zero (S := S1024x2048) origin]

/-- A middle column tile: the scratch ends at the accumulate step over what it held. -/
theorem scratch_middle (c : Dev nD) (i : grid0.Coords) (a2 : Memref sig .tc .vmem S1024x2048 .f32) (h2 : a2.IsWhole) (a3 : Memref sig .tc .vmem S1024x512 .f32) (h3 : a3.IsWhole) (a4 : Memref sig .tc .vmem S256x512 .f32) (h4 : a4.IsWhole) (a5 : Memref sig .tc .vmem S1024x256 .f32) (h5 : a5.IsWhole) (a6 : Memref sig .tc .vmem S1024x1 .f32) (h6 : a6.IsWhole) (hc0 : ¬cond0_0 i) (hc1 : ¬cond0_1 i)
    (x0 : Vec F S1024x2048 .f32) (x1 : Vec F S1024x512 .f32) (x2 : Vec F S256x512 .f32) (xs0 : Vec F S1024x1 .f32) :
    sout0_B_0 c i a2 h2 a3 h3 a4 h4 a5 h5 a6 h6 hc0 hc1 x0 x1 x2 xs0 = k0_pay2 xs0 x0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero origin]
  simp only [View.readAt_eq_ld, h6.read_unread, h2.read_unread, View.ld_unit_zero (S := S1024x1) origin, View.ld_unit_zero (S := S1024x2048) origin]

/-- The last column tile: the scratch ends at the accumulate step over what it held, -/
theorem scratch_last (c : Dev nD) (i : grid0.Coords) (a2 : Memref sig .tc .vmem S1024x2048 .f32) (h2 : a2.IsWhole) (a3 : Memref sig .tc .vmem S1024x512 .f32) (h3 : a3.IsWhole) (a4 : Memref sig .tc .vmem S256x512 .f32) (h4 : a4.IsWhole) (a5 : Memref sig .tc .vmem S1024x256 .f32) (h5 : a5.IsWhole) (a6 : Memref sig .tc .vmem S1024x1 .f32) (h6 : a6.IsWhole) (hc0 : ¬cond0_0 i) (hc1 : cond0_1 i)
    (x0 : Vec F S1024x2048 .f32) (x1 : Vec F S1024x512 .f32) (x2 : Vec F S256x512 .f32) (xs0 : Vec F S1024x1 .f32) :
    sout0_C_0 c i a2 h2 a3 h3 a4 h4 a5 h5 a6 h6 hc0 hc1 x0 x1 x2 xs0 = k0_pay2 xs0 x0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero origin]
  simp only [View.readAt_eq_ld, h6.read_unread, h2.read_unread, View.ld_unit_zero (S := S1024x1) origin, View.ld_unit_zero (S := S1024x2048) origin]

/-- and the output block at the epilogue's value of that scratch, the feature block and the weight block. -/
theorem out_last (c : Dev nD) (i : grid0.Coords) (a2 : Memref sig .tc .vmem S1024x2048 .f32) (h2 : a2.IsWhole) (a3 : Memref sig .tc .vmem S1024x512 .f32) (h3 : a3.IsWhole) (a4 : Memref sig .tc .vmem S256x512 .f32) (h4 : a4.IsWhole) (a5 : Memref sig .tc .vmem S1024x256 .f32) (h5 : a5.IsWhole) (a6 : Memref sig .tc .vmem S1024x1 .f32) (h6 : a6.IsWhole) (hc0 : ¬cond0_0 i) (hc1 : cond0_1 i)
    (x0 : Vec F S1024x2048 .f32) (x1 : Vec F S1024x512 .f32) (x2 : Vec F S256x512 .f32) (xs0 : Vec F S1024x1 .f32) :
    out0_C_3 c i a2 h2 a3 h3 a4 h4 a5 h5 a6 h6 hc0 hc1 x0 x1 x2 xs0 = k0_pay3 (k0_pay2 xs0 x0) x1 x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero origin, View.readCov_unit_zero (S := S1024x1) _ origin]
  simp only [View.readAt_eq_ld, h6.read_unread, h2.read_unread, h3.read_unread, h4.read_unread, View.ld_unit_zero (S := S1024x1) origin,
    View.ld_unit_zero (S := S1024x2048) origin, View.ld_unit_zero (S := S1024x512) origin, View.ld_unit_zero (S := S256x512) origin]

end Cert.KernelIdeal.CaseValues

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.BodyValues.lean ====
/-
  The kernel body's three stored values, read at an index, over the extended reals.

  The body keeps a column [1024, 1] of running row sums. At the first column tile it stores zeros there (`reset_apply`);
  at every tile it stores the column plus the tile's lane sums — row `r` gains the sum of the 2048 entries of the
  tile's row `r` (`accumulate_apply`); at the last tile it turns the column into the row scales `1 / (s + 1) + 1`, spreads
  each along the 512 feature columns, multiplies the features, contracts with the weight over the 512 columns into a zero
  accumulator, and takes the maximum with zero (`epilogue_apply`). The changes of float format in front of the matrix
  product are the identity on extended reals.
-/
import proofs.«173174_j37014028157612_1_alg».proof.Proof.Gen.KernelIdeal.Skeleton
import proofs.«173174_j37014028157612_1_alg».proof.Proof.LibKeepdims
import proofs.«173174_j37014028157612_1_alg».proof.Proof.DegreeScale
import Idealize.ShloMosaic.Lib.Pipeline.Value
import Idealize.ShloMosaic.Lib.ValueIdx
import Idealize.ShloMosaic.PureOps.Ideal.Laws

noncomputable section

namespace Cert.KernelIdeal.BodyValues

open Cert.KernelIdeal Cert.KernelIdeal.Gen Idealize.ShloMosaic Idealize.ShloMosaic.ValueIdx
open Cert.DegreeScale

/-- The column the first tile stores is zero everywhere. -/
theorem reset_apply (r : Fin 1024) (u : Fin 1) : k0_pay1 (F := Ideal) (ix2 r u) = zero := by
  unfold k0_pay1
  exact congrFun (shapeCast_self _ _) (ix2 r u)

/-- The entry of a [1024, 2048] tile that the lane sum of row `r` reads at place `c` is `(r, c)`. -/
theorem lane_index (h : S1024x2048.Reduces [1] S1024) (r : Fin 1024) (c : Fin 2048) :
    h.lift (ix1 r) c = ix2 r c :=
  funext fun a => Fin.ext (by match a with | ⟨0, _⟩ => rfl | ⟨1, _⟩ => rfl)

/-- A tile's lane sums, as the column [1024, 1]: at `(r, 0)` the sum of the tile's row `r`. -/
theorem laneSums_apply (v4 : FVec Ideal S1024x2048 .f32) (h : S1024x2048.Reduces [1] S1024) (hφ : FKind.Formats .f32)
    (hacc : (0x00000000#32 : BitVec 32) = FKind.add.neutral .f32 hφ) (hc : S1024.ShapeCasts S1024x1) (r : Fin 1024) (u : Fin 1) :
    shapeCast S1024x1 (multiReduction (F := Ideal) .add [1] S1024 v4 0x00000000#32 h hφ hacc) hc (ix2 r u)
      = ∑ c : Fin 2048, v4 (ix2 r c) :=
  (Cert.LibKeepdims.shapeCast_a_a1_apply _ hc r u).trans
    ((Ideal.multiReduction_add_single v4 0x00000000#32 h hφ hacc (ix1 r)).trans
      (Finset.sum_congr rfl fun c _ => congrArg v4 (lane_index h r c)))

/-- What every tile stores into the column: at `(r, 0)`, what the column held plus the sum of the tile's row `r`. -/
theorem accumulate_apply (v3 : Vec Ideal S1024x1 .f32) (v4 : Vec Ideal S1024x2048 .f32) (r : Fin 1024) (u : Fin 1) :
    k0_pay2 (F := Ideal) v3 v4 (ix2 r u) = v3 (ix2 r u) + ∑ c : Fin 2048, v4 (ix2 r c) := by
  unfold k0_pay2
  refine (congrFun (shapeCast_self _ _) (ix2 r u)).trans ?_
  exact congrArg (v3 (ix2 r u) + ·) (laneSums_apply v4 _ _ _ _ r u)

/-- The contraction of a [1024, 512] block with a [256, 512] block over their 512 columns, into the zero accumulator:
    at `(r, e)` the sum over `k` of the products of row `r` of the one with row `e` of the other. -/
theorem contract_apply (A : FVec Ideal S1024x512 .bf16) (B : FVec Ideal S256x512 .bf16) (r : Fin 1024) (e : Fin 256) :
    matmul (F := Ideal) dot_S1024x512_S256x512_S1024x256_1_1_0_0_n_n none A B (constant (F := Ideal) S1024x256 .f32 0x00000000#32) (ix2 r e)
      = ∑ k : Fin 512, A (ix2 r k) * B (ix2 e k) := by
  refine (Ideal.matmul_constant_zero_apply dot_S1024x512_S256x512_S1024x256_1_1_0_0_n_n none A B (ix2 r e)).trans ?_
  rw [← Equiv.sum_comp (contrEquiv1 dot_S1024x512_S256x512_S1024x256_1_1_0_0_n_n 512 rfl rfl).symm]
  refine Finset.sum_congr rfl fun k _ => ?_
  have hk := contrEquiv1_symm_val dot_S1024x512_S256x512_S1024x256_1_1_0_0_n_n 512 rfl rfl k
  have el : dot_S1024x512_S256x512_S1024x256_1_1_0_0_n_n.lhsIdx (ix2 r e) ((contrEquiv1 dot_S1024x512_S256x512_S1024x256_1_1_0_0_n_n 512 rfl rfl).symm k) = ix2 r k :=
    funext fun a => Fin.ext (by
      match a with
      | ⟨0, _⟩ =>
        show (dot_S1024x512_S256x512_S1024x256_1_1_0_0_n_n.lhsIdx (ix2 r e) _ 0).val = r.val
        unfold DotDims.lhsIdx
        rw [dif_neg (show ¬(0 : Fin S1024x512.rank) ∈ dot_S1024x512_S256x512_S1024x256_1_1_0_0_n_n.lhsBatch by decide), dif_pos (show (0 : Fin S1024x512.rank) ∈ dot_S1024x512_S256x512_S1024x256_1_1_0_0_n_n.lhsNonContracting by decide)]
        rfl
      | ⟨1, _⟩ => exact (dot_S1024x512_S256x512_S1024x256_1_1_0_0_n_n.lhsIdx_val_of_single rfl _ _).trans hk)
  have er : dot_S1024x512_S256x512_S1024x256_1_1_0_0_n_n.rhsIdx (ix2 r e) ((contrEquiv1 dot_S1024x512_S256x512_S1024x256_1_1_0_0_n_n 512 rfl rfl).symm k) = ix2 e k :=
    funext fun a => Fin.ext (by
      match a with
      | ⟨0, _⟩ =>
        show (dot_S1024x512_S256x512_S1024x256_1_1_0_0_n_n.rhsIdx (ix2 r e) _ 0).val = e.val
        unfold DotDims.rhsIdx
        rw [dif_neg (show ¬(0 : Fin S256x512.rank) ∈ dot_S1024x512_S256x512_S1024x256_1_1_0_0_n_n.rhsBatch by decide), dif_pos (show (0 : Fin S256x512.rank) ∈ dot_S1024x512_S256x512_S1024x256_1_1_0_0_n_n.rhsNonContracting by decide)]
        rfl
      | ⟨1, _⟩ => exact (dot_S1024x512_S256x512_S1024x256_1_1_0_0_n_n.rhsIdx_val_of_single rfl _ _).trans hk)
  rw [el, er]

/-- The scaled features: the column of row scales spread along the 512 feature columns, times the features. At `(r, k)`
    the scale of the column's entry of row `r` times the feature. -/
theorem scaled_apply (v14 : Vec Ideal S1024x1 .f32) (v21 : Vec Ideal S1024x512 .f32) (hb : S1024x1.Broadcasts S1024x512)
    (r : Fin 1024) (k : Fin 512) :
    mulf (F := Ideal) (broadcastTo S1024x512
        (addf (F := Ideal) (divf (F := Ideal) (broadcast S1024x1 (Scalar.ofBits (F := Ideal) .f32 0x3F800000#32))
          (addf (F := Ideal) v14 (broadcast S1024x1 (Scalar.ofBits (F := Ideal) .f32 0x3F800000#32))))
          (broadcast S1024x1 (Scalar.ofBits (F := Ideal) .f32 0x3F800000#32))) hb) v21 (ix2 r k)
      = scale (v14 (ix2 r 0)) * v21 (ix2 r k) :=
  congrArg (· * v21 (ix2 r k)) (Cert.LibKeepdims.broadcastTo_a1_ab_apply _ hb r k)

/-- What the last tile stores into the output block: at `(r, e)`, the maximum with zero of the contraction of the scaled
    feature row `r` (scaled by the column's entry of row `r`) with weight row `e`. -/
theorem epilogue_apply (v14 : Vec Ideal S1024x1 .f32) (v21 : Vec Ideal S1024x512 .f32) (v25 : Vec Ideal S256x512 .f32)
    (r : Fin 1024) (e : Fin 256) :
    k0_pay3 (F := Ideal) v14 v21 v25 (ix2 r e)
      = max (∑ k : Fin 512, scale (v14 (ix2 r 0)) * v21 (ix2 r k) * v25 (ix2 e k)) zero := by
  unfold k0_pay3
  refine congrArg (max · zero) ?_
  refine (contract_apply _ _ r e).trans ?_
  exact Finset.sum_congr rfl fun k _ => congrArg (· * v25 (ix2 e k)) (scaled_apply v14 v21 _ r k)

end Cert.KernelIdeal.BodyValues

end
-- ==== Proof.TileReads.lean ====
/-
  The blocks the body is handed at a grid point, as entries of the three argument arrays.

  The grid has 16 · 8 points; point `t` is row tile `t / 8`, column tile `t % 8`. There the adjacency block [1024, 2048]
  is rows `1024 · (t / 8) + r`, columns `2048 · (t % 8) + c` of the adjacency matrix; the feature block [1024, 512] is
  those rows of the features, all 512 columns; the weight block is the whole weight. A block's entry at a place is the
  array's entry at block index times block extent plus the place, axis by axis; the block indices are the printed index
  maps, decided once over the 128 points.
-/
import proofs.«173174_j37014028157612_1_alg».proof.Proof.Gen.KernelIdeal.Frame
import Idealize.ShloMosaic.Lib.Pipeline.Value
import Idealize.ShloMosaic.Lib.ValueIdx

noncomputable section

namespace Cert.KernelIdeal.TileReads

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the four windows at point `t`: the adjacency window moves with both grid coordinates, the
    feature and output windows with the row tile only, the weight window not at all. -/
theorem block_index : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

theorem point_lt (t : Fin cfg0.N) : t.val < 128 := lt_of_lt_of_eq t.isLt (show cfg0.N = 128 from N_0)

/-- The array row of place `r` in point `t`'s row tile. -/
def rowOf (t : Fin cfg0.N) (r : Fin 1024) : Fin 16384 :=
  ⟨1024 * (t.val / 8) + r.val, by have := point_lt t; have := r.isLt; omega⟩

/-- The adjacency column of place `c` in point `t`'s column tile. -/
def colOf (t : Fin cfg0.N) (c : Fin 2048) : Fin 16384 :=
  ⟨2048 * (t.val % 8) + c.val, by have := c.isLt; omega⟩

/-- The adjacency block at point `t`, at `(r, c)`: the matrix at `(rowOf t r, colOf t c)`. -/
theorem adj_tile (c : Dev nD) (t : Fin cfg0.N) (r : Fin 1024) (cc : Fin 2048) :
    (iblk m c 0 t : Vec F S1024x2048 .f32) (ix2 r cc) = m ((c : Thread nD τ).loc main_arg0) (ix2 (rowOf t r) (colOf t cc)) := by
  obtain ⟨e0, e1, -⟩ := block_index t
  unfold iblk
  rw [View.read_apply]
  show V m c main_arg0 _ = V m c main_arg0 _
  refine congrArg (V m c main_arg0) (funext fun a => Fin.ext ?_)
  match a with
  | ⟨0, _⟩ => show win0_0.index t (0 : Fin 2) * 1024 + 1 * r.val = 1024 * (t.val / 8) + r.val; rw [e0]; omega
  | ⟨1, _⟩ => show win0_0.index t (1 : Fin 2) * 2048 + 1 * cc.val = 2048 * (t.val % 8) + cc.val; rw [e1]; omega

/-- The feature block at point `t`, at `(r, k)`: the features at `(rowOf t r, k)`. -/
theorem feat_tile (c : Dev nD) (t : Fin cfg0.N) (r : Fin 1024) (k : Fin 512) :
    (iblk m c 1 t : Vec F S1024x512 .f32) (ix2 r k) = m ((c : Thread nD τ).loc main_arg1) (ix2 (rowOf t r) k) := by
  obtain ⟨-, -, e0, e1, -⟩ := block_index t
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * r.val = 1024 * (t.val / 8) + r.val; rw [e0]; omega
  | ⟨1, _⟩ => show win0_1.index t (1 : Fin 2) * 512 + 1 * k.val = k.val; rw [e1]; omega

/-- The weight block at any point is the weight. -/
theorem weight_tile (c : Dev nD) (t : Fin cfg0.N) (e : Fin 256) (k : Fin 512) :
    (iblk m c 2 t : Vec F S256x512 .f32) (ix2 e k) = m ((c : Thread nD τ).loc main_arg2) (ix2 e k) := by
  obtain ⟨-, -, -, -, e0, e1, -⟩ := block_index t
  unfold iblk
  rw [View.read_apply]
  show V m c main_arg2 _ = V m c main_arg2 _
  refine congrArg (V m c main_arg2) (funext fun a => Fin.ext ?_)
  match a with
  | ⟨0, _⟩ => show win0_2.index t (0 : Fin 2) * 256 + 1 * e.val = e.val; rw [e0]; omega
  | ⟨1, _⟩ => show win0_2.index t (1 : Fin 2) * 512 + 1 * k.val = k.val; rw [e1]; omega

end Cert.KernelIdeal.TileReads

end
-- ==== Proof.DegreeFold.lean ====
/-
  The scratch column after the last column tile of a row tile holds the rows' degrees.

  Along a row tile's 8 grid points the scratch column is reset and then stepped: the first point leaves the zero plus its
  tile's row sums, each later point adds its own tile's row sums to what the point before left. So after point `t` the
  column holds, at row `r`, the zero plus the row sums of tiles `0 … t % 8` — the fold of an addition is a sum — and
  after the last tile (`t % 8 = 7`) the zero plus all 8 tile sums of array row `1024 · (t / 8) + r`, which is that row's
  degree (`DegreeScale.degree_eq_tiles`: the 8 tiles of 2048 columns are the 16384 columns).
-/
import proofs.«173174_j37014028157612_1_alg».proof.Proof.Gen.KernelIdeal.Value
import proofs.«173174_j37014028157612_1_alg».proof.Proof.CaseValues
import proofs.«173174_j37014028157612_1_alg».proof.Proof.BodyValues
import proofs.«173174_j37014028157612_1_alg».proof.Proof.TileReads
import proofs.«173174_j37014028157612_1_alg».proof.Proof.DegreeScale

noncomputable section

namespace Cert.KernelIdeal.DegreeFold

open Cert.KernelIdeal Cert.KernelIdeal.Gen Idealize.ShloMosaic Idealize.ShloMosaic.TcCoe Idealize.SL.Sem
open Idealize.ShloMosaic.ValueIdx Cert.DegreeScale Cert.KernelIdeal.TileReads

variable (m : (ℓ : Loc nD τ sig) → Buf (Elt Ideal) ℓ)

/-- The three argument arrays as launched, and the adjacency block at a point, as arrays of extended reals. -/
abbrev adjArr (c : Dev nD) : (⟨2, ![16384, 16384]⟩ : Shape).Idx → EReal := m ((c : Thread nD τ).loc main_arg0)
abbrev featArr (c : Dev nD) : (⟨2, ![16384, 512]⟩ : Shape).Idx → EReal := m ((c : Thread nD τ).loc main_arg1)
abbrev weightArr (c : Dev nD) : (⟨2, ![256, 512]⟩ : Shape).Idx → EReal := m ((c : Thread nD τ).loc main_arg2)
abbrev adjBlock (c : Dev nD) (t : Fin cfg0.N) : (⟨2, ![1024, 2048]⟩ : Shape).Idx → EReal := iblk m c 0 t

/-- The sum of row `r` of the adjacency block at point `n` (zero past the grid, where it is never asked). -/
def tileSum (c : Dev nD) (n : ℕ) (r : Fin 1024) : EReal :=
  if h : n < cfg0.N then ∑ cc : Fin 2048, adjBlock m c ⟨n, h⟩ (ix2 r cc) else 0

/-- The row of an index of the column [1024, 1]. -/
def rowIx (i : S1024x1.Idx) : Fin 1024 := ⟨(i 0).val, idx2_lt0 i⟩

/-- At a row tile's first point the scratch is left at the zero plus the tile's row sums, whatever it held. -/
theorem first_apply (c : Dev nD) (n : ℕ) (hb : n < cfg0.N) (h0 : n % 8 = 0) (acc : Vec Ideal S1024x1 .f32) (r : Fin 1024) (u : Fin 1) :
    Value.scAt0_0 m c n hb acc (ix2 r u) = zero + tileSum m c n r := by
  have h1 : ¬n % 8 = 7 := by omega
  unfold Value.scAt0_0 tileSum
  rw [dif_pos h0, dif_neg h1, dif_pos hb]
  exact (congrFun (CaseValues.scratch_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 r u)).trans
    ((BodyValues.accumulate_apply (k0_pay1 (F := Ideal)) (iblk m c 0 (⟨n, hb⟩ : Fin cfg0.N)) r u).trans
      (congrArg (· + ∑ cc : Fin 2048, adjBlock m c (⟨n, hb⟩ : Fin cfg0.N) (ix2 r cc)) (BodyValues.reset_apply r u)))

/-- At every later point of the row tile the scratch gains the tile's row sums. -/
theorem step_apply (c : Dev nD) (n : ℕ) (hb : n < cfg0.N) (h0 : ¬n % 8 = 0) (acc : Vec Ideal S1024x1 .f32) (r : Fin 1024) (u : Fin 1) :
    Value.scAt0_0 m c n hb acc (ix2 r u) = acc (ix2 r u) + tileSum m c n r := by
  unfold Value.scAt0_0 tileSum
  rw [dif_neg h0, dif_pos hb]
  by_cases h1 : n % 8 = 7
  · rw [dif_pos h1]
    exact (congrFun (CaseValues.scratch_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 r u)).trans
      (BodyValues.accumulate_apply acc (iblk m c 0 (⟨n, hb⟩ : Fin cfg0.N)) r u)
  · rw [dif_neg h1]
    exact (congrFun (CaseValues.scratch_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 r u)).trans
      (BodyValues.accumulate_apply acc (iblk m c 0 (⟨n, hb⟩ : Fin cfg0.N)) r u)

/-- After point `t` the scratch holds, at row `r`, the zero plus the row sums of the row tile's tiles `0 … t % 8`. -/
theorem scratch_after (c : Dev nD) (t : Fin cfg0.N) (r : Fin 1024) (u : Fin 1) :
    (outsAt0 m c t.val t.isLt).2 (ix2 r u)
      = zero + ∑ s ∈ Finset.range (t.val % 8 + 1), tileSum m c (8 * (t.val / 8) + s) r := by
  rw [Value.soutsAt0_0_eq m c t]
  exact Pipeline.accAt_add_apply (fun n h => Value.scAt0_0 m c n h (VS0_0.read (Elt Ideal) VS0_0.junk)) (Value.scAt0_0 m c)
    (fun _ => zero) (fun n i => tileSum m c n (rowIx i)) (8 * (t.val / 8)) 7
    (fun h i => by
      obtain ⟨r', u', rfl⟩ : ∃ (r' : Fin 1024) (u' : Fin 1), i = ix2 r' u' := ⟨i 0, i 1, eq_ix2 i⟩
      exact first_apply m c _ h (Nat.mul_mod_right 8 _) _ r' u')
    (fun n h acc i hlo hhi => by
      obtain ⟨r', u', rfl⟩ : ∃ (r' : Fin 1024) (u' : Fin 1), i = ix2 r' u' := ⟨i 0, i 1, eq_ix2 i⟩
      exact step_apply m c n h (by omega) acc r' u')
    (t.val % 8) (by omega) _ (ix2 r u)

/-- The adjacency column at place `cc` of column tile `s`. -/
def tileCol (s : Fin 8) (cc : Fin 2048) : Fin 16384 := ⟨2048 * s.val + cc.val, by have := s.isLt; have := cc.isLt; omega⟩

/-- The row sums of tile `s` of point `t`'s row tile, as entries of the adjacency matrix. -/
theorem tileSum_eq (c : Dev nD) (t : Fin cfg0.N) (s : Fin 8) (r : Fin 1024) :
    tileSum m c (8 * (t.val / 8) + s.val) r
      = ∑ cc : Fin 2048, adjArr m c (ix2 (rowOf t r) (tileCol s cc)) := by
  have ht := point_lt t
  have hs := s.isLt
  have hlt : 8 * (t.val / 8) + s.val < cfg0.N :=
    lt_of_lt_of_eq (by omega : 8 * (t.val / 8) + s.val < 128) (show cfg0.N = 128 from N_0).symm
  unfold tileSum
  rw [dif_pos hlt]
  refine Finset.sum_congr rfl fun cc _ => ?_
  refine (adj_tile m c ⟨_, hlt⟩ r cc).trans ?_
  have e1 : rowOf ⟨8 * (t.val / 8) + s.val, hlt⟩ r = rowOf t r :=
    Fin.ext (by show 1024 * ((8 * (t.val / 8) + s.val) / 8) + r.val = 1024 * (t.val / 8) + r.val; omega)
  have e2 : colOf ⟨8 * (t.val / 8) + s.val, hlt⟩ cc = tileCol s cc :=
    Fin.ext (by show 2048 * ((8 * (t.val / 8) + s.val) % 8) + cc.val = 2048 * s.val + cc.val; omega)
  exact congrArg₂ (fun a b => adjArr m c (ix2 a b)) e1 e2

/-- After the last column tile the scratch holds the degrees of the row tile's rows. -/
theorem degree_at_last (c : Dev nD) (t : Fin cfg0.N) (h7 : t.val % 8 = 7) (r : Fin 1024) (u : Fin 1) :
    (outsAt0 m c t.val t.isLt).2 (ix2 r u) = degree (adjArr m c) (rowOf t r) := by
  rw [scratch_after, h7]
  show zero + ∑ s ∈ Finset.range 8, tileSum m c (8 * (t.val / 8) + s) r = _
  rw [Finset.sum_range]
  refine (congrArg (zero + ·) (Finset.sum_congr rfl fun s _ => tileSum_eq m c t s r)).trans ?_
  exact degree_eq_tiles _ (rowOf t r) tileCol (fun s cc => rfl)

end Cert.KernelIdeal.DegreeFold

end
-- ==== Proof.ResultArray.lean ====
/-
  The kernel's result array is `DegreeScale.out` of its three argument arrays.

  The output window is written back at the last column tile of each row tile only (the points `t` with `t % 8 = 7`). What
  such a point writes back is the epilogue's value of the scratch column it has just completed — the degrees of the row
  tile's rows (`DegreeFold.degree_at_last`) —, of the feature block and of the weight: at `(r, e)` of the block,
  `DegreeScale.outAt` at array row `1024 · (t / 8) + r` and column `e`, which is where the output block's place `(r, e)` lies in
  the result array. The 16 output blocks, one per row tile, cover the array: row `R` lies in the block written back at
  point `8 · (R / 1024) + 7`. So the array ends at `out` everywhere.
-/
import proofs.«173174_j37014028157612_1_alg».proof.Proof.DegreeFold
import Idealize.ShloMosaic.Lib.Pipeline.Value

noncomputable section

namespace Cert.KernelIdeal.ResultArray

open Cert.KernelIdeal Cert.KernelIdeal.Gen Idealize.ShloMosaic Idealize.ShloMosaic.TcCoe Idealize.SL.Sem
open Idealize.ShloMosaic.Pipeline (Dat)
open Idealize.ShloMosaic.ValueIdx Cert.DegreeScale Cert.KernelIdeal.TileReads Cert.KernelIdeal.DegreeFold

variable (m : (ℓ : Loc nD τ sig) → Buf (Elt Ideal) ℓ) (ρ : Dev nD → PrngReg)

/-- The result: `out` of the three arguments as launched. -/
abbrev result (c : Dev nD) : Buf (Elt Ideal) ((c : Thread nD τ).loc main_v0) :=
  out (adjArr m c) (featArr m c) (weightArr m c)

/-- At a row tile's last point the output block holds the epilogue's value of the scratch the point leaves. -/
theorem out_at_last (c : Dev nD) (t : Fin cfg0.N) (h7 : t.val % 8 = 7) :
    (outsAt0 m c t.val t.isLt).1 = k0_pay3 (F := Ideal) ((outsAt0 m c t.val t.isLt).2) (iblk m c 1 t) (iblk m c 2 t) := by
  have h0 : ¬t.val % 8 = 0 := by omega
  rw [outsAt0_C m c t h0 h7]
  dsimp only
  exact (CaseValues.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t)
      (outsAt0 m c (t.val - 1) (Nat.lt_of_le_of_lt (Nat.sub_le _ _) t.isLt)).2).trans
    (congrArg (fun s => k0_pay3 (F := Ideal) s (iblk m c 1 t) (iblk m c 2 t))
      (CaseValues.scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t)
        (outsAt0 m c (t.val - 1) (Nat.lt_of_le_of_lt (Nat.sub_le _ _) t.isLt)).2).symm)

/-- What a flushing point writes back is its block of `result`. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  obtain ⟨-, -, -, -, -, -, e0, e1⟩ := block_index t
  rw [Value.flushed3 m c t]
  funext y
  obtain ⟨r, e, rfl⟩ : ∃ (r : Fin 1024) (e : Fin 256), y = ix2 r e := ⟨y 0, y 1, eq_ix2 y⟩
  show (outsAt0 m c t.val t.isLt).1 (ix2 r e) = result m c (((cfg0.win 3).blk t).view.emb (ix2 r e))
  have hemb : ((cfg0.win 3).blk t).view.emb (ix2 r e) = ix2 (rowOf t r) e := funext fun a => Fin.ext (by
    match a with
    | ⟨0, _⟩ => show win0_3.index t (0 : Fin 2) * 1024 + 1 * r.val = 1024 * (t.val / 8) + r.val; rw [e0]; omega
    | ⟨1, _⟩ => show win0_3.index t (1 : Fin 2) * 256 + 1 * e.val = e.val; rw [e1]; omega)
  rw [hemb, out_at_last m c t h7]
  show _ = out _ _ _ (ix2 (rowOf t r) e)
  rw [out_ix2]
  refine (BodyValues.epilogue_apply _ (iblk m c 1 t) (iblk m c 2 t) r e).trans ?_
  unfold outAt
  refine congrArg (max · zero) (Finset.sum_congr rfl fun k _ => ?_)
  exact congrArg₂ (· * ·) (congrArg₂ (· * ·) (congrArg scale (degree_at_last m c t h7 r 0)) (feat_tile m c t r k)) (weight_tile m c t e k)

/-- Every index of the result array lies in the block some flushing point writes back: row `R` in that of point `8 · (R / 1024) + 7`. -/
theorem cover (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  obtain ⟨t, ht⟩ : ∃ t : Fin cfg0.N, t.val = 8 * ((i 0).val / 1024) + 7 :=
    ⟨⟨8 * ((i 0).val / 1024) + 7, lt_of_lt_of_eq (by omega : 8 * ((i 0).val / 1024) + 7 < 128) (show cfg0.N = 128 from N_0).symm⟩, rfl⟩
  obtain ⟨-, -, -, -, -, -, e0, e1⟩ := block_index t
  refine ⟨t, (flush0_3 t).mpr (by omega), ?_⟩
  show i ∈ ((View.whole main_v0).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 256 ≤ (i 1).val ∧ (i 1).val < win0_3.index t (1 : Fin 2) * 256 + 256
    rw [e1]; omega

/-- The result array after the run. -/
theorem final (c : Dev nD) : (dats m 0 c).arrAt 3 cfg0.N = result m c :=
  (dats m 0 c).arrAt_eq_of_cover 3 (result m c) (fun t hf => flushed_eq m c t hf) cover

/-- The run, read: the result array at `out` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ResultArray

end
-- ==== Proof.lean ====
/-
  The kernel and its reference compute one function of their three arguments, over the extended reals.

  For an adjacency matrix `adj` [16384, 16384], features `x` [16384, 512] and a weight `W` [256, 512] both compute
  `out r e = max (∑ᵢ ((1 / (deg r + 1) + 1) · x r i) · W e i) 0`, with `deg r = 0 + ∑ₖ adj r k` the degree of row `r`
  (`DegreeScale.out`). The reference does so in one pass of whole-array operations (`RefIsSpec.ref_eq_out`). The kernel
  walks a grid of 16 row tiles by 8 column tiles: along a row tile it accumulates the rows' degrees in a scratch column,
  tile sum after tile sum (`DegreeFold.degree_at_last`), and at the last column tile scales the feature rows, contracts
  them with the weight, rectifies, and writes the row tile's block of the result (`ResultArray.run`). The two differ only
  in how a row's 16384 adjacency entries are grouped into a sum, which addition on the extended reals does not see: the
  precondition that the inputs are finite is not used. The changes of float format inside the kernel are the identity on
  extended reals, and the idealization rewrote no operation, so the kernel's idealization claim is trivial.
-/
import proofs.«173174_j37014028157612_1_alg».proof.Defs
import proofs.«173174_j37014028157612_1_alg».proof.Proof.Gen.Kernel
import proofs.«173174_j37014028157612_1_alg».proof.Proof.Gen.Kernel.Skeleton
import proofs.«173174_j37014028157612_1_alg».proof.Proof.Gen.Kernel.Launch
import proofs.«173174_j37014028157612_1_alg».proof.Proof.Gen.Kernel.Points
import proofs.«173174_j37014028157612_1_alg».proof.Proof.Gen.Kernel.Frame
import proofs.«173174_j37014028157612_1_alg».proof.Proof.Gen.KernelIdeal
import proofs.«173174_j37014028157612_1_alg».proof.Proof.Gen.KernelIdeal.Skeleton
import proofs.«173174_j37014028157612_1_alg».proof.Proof.Gen.KernelIdeal.Launch
import proofs.«173174_j37014028157612_1_alg».proof.Proof.Gen.KernelIdeal.Points
import proofs.«173174_j37014028157612_1_alg».proof.Proof.Gen.KernelIdeal.Frame
import proofs.«173174_j37014028157612_1_alg».proof.Proof.Gen.ReferenceIdeal
import proofs.«173174_j37014028157612_1_alg».proof.Proof.Gen.Pre_finite_inputs
import proofs.«173174_j37014028157612_1_alg».proof.Proof.Gen.KernelIdeal.Value
import proofs.«173174_j37014028157612_1_alg».proof.Proof.Gen.ReferenceIdeal.Run
import proofs.«173174_j37014028157612_1_alg».proof.Proof.Gen.ReferenceIdeal.Read
import proofs.«173174_j37014028157612_1_alg».proof.Proof.RefIsSpec
import proofs.«173174_j37014028157612_1_alg».proof.Proof.ResultArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at `out` of its arguments, the reference's at its last stage of arguments that
    agree with them, and that stage is `out`. -/
theorem algebraic : Cert.algebraic_KernelIdeal_ReferenceIdeal := by
  intro m ρ m' ρ' _ hagree
  refine ⟨fun c => Cert.KernelIdeal.ResultArray.result m c, Cert.KernelIdeal.ResultArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq_out, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
